-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x300x4x32x32 : Shape := ⟨5, ![8, 300, 4, 32, 32]⟩
abbrev S8x300x32x32 : Shape := ⟨4, ![8, 300, 32, 32]⟩
abbrev S_ : Shape := ⟨0, ![]⟩

class Facts : Prop where
  bcast_S_S8x300x4x32x32 : S_.BroadcastsInDim S8x300x4x32x32 (![] : Fin 0 → Fin S8x300x4x32x32.rank)
  reducesTo_S8x300x4x32x32_S_d0_1_2_3_4 : S8x300x4x32x32.ReducesTo [0, 1, 2, 3, 4] S_
  h_S_ : 0 < S_.numel
  bcast_S_S8x300x32x32 : S_.BroadcastsInDim S8x300x32x32 (![] : Fin 0 → Fin S8x300x32x32.rank)
  reducesTo_S8x300x32x32_S_d0_1_2_3 : S8x300x32x32.ReducesTo [0, 1, 2, 3] S_

variable [Facts]

def fn {F : FTy → Type} [FloatOps F] (main_arg0 : FVec F S8x300x4x32x32 .f32) (main_arg1 : FVec F S8x300x4x32x32 .f32) (main_arg2 : FVec F S8x300x32x32 .f32) : IVec S_ 1 :=
  let main_v0 : FVec F S8x300x4x32x32 .f32 := Host.absf main_arg0
  let main_cst : FVec F S_ .f32 := constant S_ .f32 0x7F800000#32
  let main_v1 : FVec F S8x300x4x32x32 .f32 := broadcastInDim S8x300x4x32x32 ![] bcast_S_S8x300x4x32x32 main_cst
  let main_v2 : IVec S8x300x4x32x32 1 := cmpf .olt main_v0 main_v1
  let main_c : IVec S_ 1 := constantI S_ 1 1#1
  let main_v3 : IVec S_ 1 := (fun x v => Host.reduce IntOp.andi x v reducesTo_S8x300x4x32x32_S_d0_1_2_3_4 h_S_) main_v2 main_c
  let main_v4 : FVec F S8x300x4x32x32 .f32 := Host.absf main_arg1
  let main_cst_0 : FVec F S_ .f32 := constant S_ .f32 0x7F800000#32
  let main_v5 : FVec F S8x300x4x32x32 .f32 := broadcastInDim S8x300x4x32x32 ![] bcast_S_S8x300x4x32x32 main_cst_0
  let main_v6 : IVec S8x300x4x32x32 1 := cmpf .olt main_v4 main_v5
  let main_c_1 : IVec S_ 1 := constantI S_ 1 1#1
  let main_v7 : IVec S_ 1 := (fun x v => Host.reduce IntOp.andi x v reducesTo_S8x300x4x32x32_S_d0_1_2_3_4 h_S_) main_v6 main_c_1
  let main_v8 : IVec S_ 1 := andi main_v3 main_v7
  let main_v9 : FVec F S8x300x32x32 .f32 := Host.absf main_arg2
  let main_cst_2 : FVec F S_ .f32 := constant S_ .f32 0x7F800000#32
  let main_v10 : FVec F S8x300x32x32 .f32 := broadcastInDim S8x300x32x32 ![] bcast_S_S8x300x32x32 main_cst_2
  let main_v11 : IVec S8x300x32x32 1 := cmpf .olt main_v9 main_v10
  let main_c_3 : IVec S_ 1 := constantI S_ 1 1#1
  let main_v12 : IVec S_ 1 := (fun x v => Host.reduce IntOp.andi x v reducesTo_S8x300x32x32_S_d0_1_2_3 h_S_) main_v11 main_c_3
  let main_v13 : IVec S_ 1 := andi main_v8 main_v12
  main_v13
-- ==== Kernel.lean ====
abbrev S8x300x4x32x32 : Shape := ⟨5, ![8, 300, 4, 32, 32]⟩
abbrev S8x300x32x32 : Shape := ⟨4, ![8, 300, 32, 32]⟩
abbrev S8x32x32 : Shape := ⟨3, ![8, 32, 32]⟩
abbrev S1x60x4x32x32 : Shape := ⟨5, ![1, 60, 4, 32, 32]⟩
abbrev S1x60x32x32 : Shape := ⟨4, ![1, 60, 32, 32]⟩
abbrev S1x32x32 : Shape := ⟨3, ![1, 32, 32]⟩
abbrev S1x60x1x32x32 : Shape := ⟨5, ![1, 60, 1, 32, 32]⟩
abbrev S_ : Shape := ⟨0, ![]⟩

abbrev nBuf : Space → Nat
  | .hbm => 8
  | .vmem => 9
  | .smem => 0
  | _ => 0

abbrev bufTy : (tb : Table) → Fin (tcTables nBuf tb) → BufTy
  | .hbm, ⟨0, _⟩ => ⟨S8x300x4x32x32, .f32⟩
  | .hbm, ⟨1, _⟩ => ⟨S8x300x4x32x32, .f32⟩
  | .hbm, ⟨2, _⟩ => ⟨S8x300x32x32, .f32⟩
  | .hbm, ⟨3, _⟩ => ⟨S8x32x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x60x4x32x32, .f32⟩
  | .local _ .vmem, ⟨1, _⟩ => ⟨S1x60x4x32x32, .f32⟩
  | .local _ .vmem, ⟨2, _⟩ => ⟨S1x60x4x32x32, .f32⟩
  | .local _ .vmem, ⟨3, _⟩ => ⟨S1x60x4x32x32, .f32⟩
  | .local _ .vmem, ⟨4, _⟩ => ⟨S1x60x32x32, .f32⟩
  | .local _ .vmem, ⟨5, _⟩ => ⟨S1x60x32x32, .f32⟩
  | .local _ .vmem, ⟨6, _⟩ => ⟨S1x32x32, .f32⟩
  | .local _ .vmem, ⟨7, _⟩ => ⟨S1x32x32, .f32⟩
  | .local _ .vmem, ⟨8, _⟩ => ⟨S1x32x32, .f32⟩
  | _, _ => ⟨S8x300x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v18 : BitVec 1 := Scalar.cmpi .eq arg1 c4_i32
  let v19 : BitVec 32 := Scalar.extui v18
  let c0_i32_21 : BitVec 32 := 0#32
  let v20 : BitVec 1 := Scalar.cmpi .ne v19 c0_i32_21
  v20

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x60x4x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x60x4x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x60x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x32x32_S1x32x32_0_0_0 : ∀ a, (![0, 0, 0] : Fin 3 → Nat) a + S1x32x32.size a ≤ S1x32x32.size a
  h_S1x32x32 : 0 < S1x32x32.numel
  shapeCasts_S1x32x32_S1x32x32 : S1x32x32.ShapeCasts S1x32x32
  inb_S1x60x4x32x32_S1x60x4x32x32_0_0_0_0_0 : ∀ a, (![0, 0, 0, 0, 0] : Fin 5 → Nat) a + S1x60x4x32x32.size a ≤ S1x60x4x32x32.size a
  h_S1x60x4x32x32 : 0 < S1x60x4x32x32.numel
  inb_S1x60x32x32_S1x60x32x32_0_0_0_0 : ∀ a, (![0, 0, 0, 0] : Fin 4 → Nat) a + S1x60x32x32.size a ≤ S1x60x32x32.size a
  h_S1x60x32x32 : 0 < S1x60x32x32.numel
  shapeCasts_S1x60x32x32_S1x60x1x32x32 : S1x60x32x32.ShapeCasts S1x60x1x32x32
  broadcasts_S1x60x1x32x32_S1x60x4x32x32 : S1x60x1x32x32.Broadcasts S1x60x4x32x32
  reduces_S1x60x4x32x32_S1x60x32x32 : S1x60x4x32x32.Reduces [2] S1x60x32x32
  reduces_S1x60x32x32_S1x32x32 : S1x60x32x32.Reduces [1] S1x32x32
  reducesTo_S8x32x32_S_d0_1_2 : S8x32x32.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x60x4x32x32.size a ≤ S8x300x4x32x32.size a
  hwx0_0 : ∀ i : grid0.Coords, EltTy.bits .f32 = 32 ∨ (Rect.block (s := S8x300x4x32x32) S1x60x4x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x60x4x32x32.size a ≤ S8x300x4x32x32.size a
  hwx0_1 : ∀ i : grid0.Coords, EltTy.bits .f32 = 32 ∨ (Rect.block (s := S8x300x4x32x32) S1x60x4x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x60x32x32.size a ≤ S8x300x32x32.size a
  hwx0_2 : ∀ i : grid0.Coords, EltTy.bits .f32 = 32 ∨ (Rect.block (s := S8x300x32x32) S1x60x32x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x32.size a ≤ S8x32x32.size a
  hwx0_3 : ∀ i : grid0.Coords, EltTy.bits .f32 = 32 ∨ (Rect.block (s := S8x32x32) S1x32x32.size (cc0_transform_3 i) (hinb0_3 i)).WholeWords (EltTy.packing .f32)

variable [Facts₀]

abbrev win0_0 : Pipeline.Window sig grid0 :=
  Pipeline.Window.ofSpec (Memref.whole main_arg0) S1x60x4x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x60x4x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x60x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x300x4x32x32 : Shape := ⟨5, ![8, 300, 4, 32, 32]⟩
abbrev S8x300x32x32 : Shape := ⟨4, ![8, 300, 32, 32]⟩
abbrev S8x300x1x32x32 : Shape := ⟨5, ![8, 300, 1, 32, 32]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x300x4x32x32, .f32⟩
  | .hbm, ⟨1, _⟩ => ⟨S8x300x4x32x32, .f32⟩
  | .hbm, ⟨2, _⟩ => ⟨S8x300x32x32, .f32⟩
  | .hbm, ⟨3, _⟩ => ⟨S8x300x4x32x32, .f32⟩
  | .hbm, ⟨4, _⟩ => ⟨S8x300x4x32x32, .f32⟩
  | .hbm, ⟨5, _⟩ => ⟨S8x300x1x32x32, .f32⟩
  | .hbm, ⟨6, _⟩ => ⟨S8x300x4x32x32, .f32⟩
  | .hbm, ⟨7, _⟩ => ⟨S8x300x4x32x32, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S8x300x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S8x300x32x32_S8x300x1x32x32_0_1_3_4 : S8x300x32x32.BroadcastsInDim S8x300x1x32x32 (![0, 1, 3, 4] : Fin 4 → Fin S8x300x1x32x32.rank)
  bcast_S8x300x1x32x32_S8x300x4x32x32_0_1_2_3_4 : S8x300x1x32x32.BroadcastsInDim S8x300x4x32x32 (![0, 1, 2, 3, 4] : Fin 5 → Fin S8x300x4x32x32.rank)
  reducesTo_S8x300x4x32x32_S_d0_1_2_3_4 : S8x300x4x32x32.ReducesTo [0, 1, 2, 3, 4] S_
  h_S_ : 0 < S_.numel

variable [Facts₀]

class Facts : Prop extends Facts₀ where

variable [Facts]
-- ==== Proof.LibSumIdx3.lean ====
/-
  Sums over a rank-3 index set, by coordinates. The index set of a shape `[n0, n1, n2]` is the product of its three
  coordinate ranges, so a sum over it is the triple sum over the coordinates; when one axis has extent one the sum
  over that axis is its single term, and what is left is the double sum over the two other coordinates with the
  unit coordinate at `0`.
-/
import Idealize.ShloMosaic.Lib.ValueIdx

noncomputable section

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over a shape `[n0, n1, 1]`: the double sum over the first two coordinates, the last at `0`. -/
theorem sum_idx3_unit_last {M : Type*} [AddCommMonoid M] {n0 n1 : Nat} (f : (⟨3, ![n0, n1, 1]⟩ : Shape).Idx → M) :
    ∑ i, f i = ∑ a : Fin n0, ∑ b : Fin n1, f (ix3 a b 0) := by
  rw [sum_idx3]
  refine Finset.sum_congr rfl fun a _ => Finset.sum_congr rfl fun b _ => ?_
  exact Fin.sum_univ_one _

/-- Over a shape `[n0, 1, n2]`: the double sum over the first and last coordinates, the middle one at `0`. -/
theorem sum_idx3_unit_mid {M : Type*} [AddCommMonoid M] {n0 n2 : Nat} (f : (⟨3, ![n0, 1, n2]⟩ : Shape).Idx → M) :
    ∑ i, f i = ∑ a : Fin n0, ∑ c : Fin n2, f (ix3 a 0 c) := by
  rw [sum_idx3]
  refine Finset.sum_congr rfl fun a _ => ?_
  exact Fin.sum_univ_one _

end Cert.LibSumIdx3

end
-- ==== Proof.LibSumIdx5.lean ====
/-
  Sums over rank-4 and rank-5 index sets, by coordinates. The index set of a shape `[n0, n1, n2, n3, n4]` is the
  product of its five coordinate ranges, so a sum over it is the iterated sum over the coordinates (and likewise at
  rank 4). Also: an iterated sum over four finite ranges with the last two ranges moved to the front.
  Values in any commutative additive monoid.
-/
import Idealize.ShloMosaic.Lib.ValueIdx

noncomputable section

open scoped BigOperators

namespace Cert.LibSumIdx5

open Idealize.ShloMosaic Idealize.ShloMosaic.ValueIdx

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f,
    Fintype.sum_prod_type]
  refine Finset.sum_congr rfl fun a _ => ?_
  rw [Fintype.sum_prod_type]
  refine Finset.sum_congr rfl fun b _ => ?_
  rw [Fintype.sum_prod_type]
  refine Finset.sum_congr rfl fun c _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the four-fold sum over the coordinates. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Four nested finite sums with the two inner ranges moved outside: `∑ s c h w = ∑ h w s c`. -/
theorem sum_inner_two_out {α β γ δ M : Type*} [Fintype α] [Fintype β] [Fintype γ] [Fintype δ] [AddCommMonoid M]
    (g : α → β → γ → δ → M) :
    ∑ s, ∑ c, ∑ h, ∑ w, g s c h w = ∑ h, ∑ w, ∑ s, ∑ c, g s c h w := by
  calc ∑ s, ∑ c, ∑ h, ∑ w, g s c h w
      = ∑ s, ∑ h, ∑ c, ∑ w, g s c h w := Finset.sum_congr rfl fun s _ => Finset.sum_comm
    _ = ∑ h, ∑ s, ∑ c, ∑ w, g s c h w := Finset.sum_comm
    _ = ∑ h, ∑ s, ∑ w, ∑ c, g s c h w :=
        Finset.sum_congr rfl fun h _ => Finset.sum_congr rfl fun s _ => Finset.sum_comm
    _ = ∑ h, ∑ w, ∑ s, ∑ c, g s c h w := Finset.sum_congr rfl fun h _ => Finset.sum_comm

end Cert.LibSumIdx5

end
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.LibRunningTotal.lean ====
/-
  Running totals. A family `f` indexed by `Fin N` in a commutative additive monoid, added up one member at a
  time from the first: the total over the indices `≤ n` starts at `f 0`, takes in `f (n+1)` at step `n+1`, and
  at the last index is the sum of the whole family. This is what an accumulator that is reset at the first
  grid point and increased by one block's contribution at every point holds.
-/
import Mathlib.Algebra.BigOperators.Fin
import Mathlib.Data.Fintype.Basic

namespace RunningTotal

open Finset

variable {M : Type*} [AddCommMonoid M] {N : ℕ}

/-- The total of `f` over the indices `≤ n`. -/
def upTo (f : Fin N → M) (n : ℕ) : M := ∑ t ∈ (univ : Finset (Fin N)).filter (fun t => t.val ≤ n), f t

/-- At the first index the total is that member alone. -/
theorem upTo_zero (f : Fin N → M) (h : 0 < N) : upTo f 0 = f ⟨0, h⟩ := by
  unfold upTo
  have : (univ : Finset (Fin N)).filter (fun t => t.val ≤ 0) = {⟨0, h⟩} := by
    ext t
    simp only [mem_filter, mem_univ, true_and, mem_singleton, Nat.le_zero]
    exact ⟨fun e => Fin.ext e, fun e => by rw [e]⟩
  rw [this, sum_singleton]

/-- One step: the total over the indices `≤ n + 1` is the total over those `≤ n` plus the new member. -/
theorem upTo_succ (f : Fin N → M) (n : ℕ) (h : n + 1 < N) : upTo f (n + 1) = upTo f n + f ⟨n + 1, h⟩ := by
  unfold upTo
  have : (univ : Finset (Fin N)).filter (fun t => t.val ≤ n + 1)
      = insert ⟨n + 1, h⟩ ((univ : Finset (Fin N)).filter (fun t => t.val ≤ n)) := by
    ext t
    simp only [mem_filter, mem_univ, true_and, mem_insert]
    constructor
    · intro e
      rcases Nat.lt_or_ge t.val (n + 1) with e' | e'
      · exact Or.inr (Nat.lt_succ_iff.mp e')
      · exact Or.inl (Fin.ext (Nat.le_antisymm e e'))
    · rintro (e | e)
      · rw [e]
      · exact Nat.le_succ_of_le e
  rw [this, sum_insert, add_comm]
  simp only [mem_filter, mem_univ, true_and, not_le]
  exact Nat.lt_succ_self n

/-- At the last index the total is the sum of the whole family. -/
theorem upTo_last (f : Fin N → M) (n : ℕ) (h : N ≤ n + 1) : upTo f n = ∑ t, f t := by
  unfold upTo
  rw [filter_true_of_mem]
  intro t _
  exact Nat.lt_succ_iff.mp (lt_of_lt_of_le t.isLt h)

end RunningTotal
-- ==== Proof.Spec.lean ====
/-
  What both programs compute, as one function of the three argument arrays.

  The arrays: `o` and `cv` of shape [8, 300, 4, 32, 32] and a weight `wt` of shape [8, 300, 32, 32]. One term is
  the weighted squared difference `(cv - o)² · wt` at (b, s, c, h, w), the weight not depending on the channel `c`.
  The sequence axis of extent 300 is cut into 5 tiles of 60. For each (b, h, w) the partial sum adds the terms over
  the tiles, the 60 positions of a tile and the 4 channels; the result is the sum of all 8·32·32 partial sums,
  started from the zero word, divided by 1024.

  The one law used: the sum of all terms over the rank-5 index set is the sum over (b, h, w) of the partial sums.
  Addition on the extended reals is commutative and associative without any finiteness, so the regrouping needs none.
-/
import Idealize.ShloMosaic.PureOps.Ideal
import Idealize.ShloMosaic.Lib.ValueIdx
import proofs.«139337_j33758442946604_2_alg».proof.Proof.LibSumIdx3
import proofs.«139337_j33758442946604_2_alg».proof.Proof.LibSumIdx5
import proofs.«139337_j33758442946604_2_alg».proof.Proof.LibTileSum
import proofs.«139337_j33758442946604_2_alg».proof.Proof.LibRunningTotal

noncomputable section

open scoped BigOperators

namespace Cert.Spec

open Idealize.ShloMosaic Idealize.ShloMosaic.ValueIdx

/-- The rank-5 arrays' index set, the weight's, and the partial sums'. -/
abbrev I5 : Type := (⟨5, ![8, 300, 4, 32, 32]⟩ : Shape).Idx
abbrev I4 : Type := (⟨4, ![8, 300, 32, 32]⟩ : Shape).Idx
abbrev I3 : Type := (⟨3, ![8, 32, 32]⟩ : Shape).Idx

/-- 5 tiles of 60 make the axis of 300. -/
theorem tiles : 5 * 60 = 300 := by norm_num

/-- One term: the squared difference at (b, s, c, h, w) times the weight at (b, s, h, w). -/
def wsq (o cv : I5 → EReal) (wt : I4 → EReal) (b : Fin 8) (s : Fin 300) (c : Fin 4) (h w : Fin 32) : EReal :=
  (cv (ix5 b s c h w) - o (ix5 b s c h w)) * (cv (ix5 b s c h w) - o (ix5 b s c h w)) * wt (ix4 b s h w)

/-- Tile `k`'s contribution at (b, h, w): its 60 positions and the 4 channels. -/
def tileSum (o cv : I5 → EReal) (wt : I4 → EReal) (b : Fin 8) (h w : Fin 32) (k : Fin 5) : EReal :=
  ∑ s : Fin 60, ∑ c : Fin 4, wsq o cv wt b (TileSum.idx tiles k s) c h w

/-- The partial sum at (b, h, w): all five tiles. -/
def partialSum (o cv : I5 → EReal) (wt : I4 → EReal) : I3 → EReal :=
  fun p => ∑ k : Fin 5, tileSum o cv wt (p 0) (p 1) (p 2) k

/-- The result (a rank-0 array): the zero word plus all partial sums, divided by 1024. -/
def G (o cv : I5 → EReal) (wt : I4 → EReal) : (⟨0, ![]⟩ : Shape).Idx → EReal :=
  fun _ => Ideal.div (Ideal.ofBits .f32 0x00000000#32 + ∑ p : I3, partialSum o cv wt p) (Ideal.ofBits .f32 0x44800000#32)

/-- The sum of every term, the weight written first, is the sum of the partial sums. -/
theorem total_eq (o cv : I5 → EReal) (wt : I4 → EReal) :
    ∑ j : I5, wt (ix4 (j 0) (j 1) (j 3) (j 4)) * ((cv j - o j) * (cv j - o j)) = ∑ p : I3, partialSum o cv wt p := by
  rw [Cert.LibSumIdx5.sum_idx5, Cert.LibSumIdx3.sum_idx3]
  refine Finset.sum_congr rfl fun b _ => ?_
  have h1 : ∀ (s : Fin 300) (c : Fin 4) (h w : Fin 32),
      wt (ix4 ((ix5 b s c h w : I5) 0) ((ix5 b s c h w : I5) 1) ((ix5 b s c h w : I5) 3) ((ix5 b s c h w : I5) 4))
        * ((cv (ix5 b s c h w) - o (ix5 b s c h w)) * (cv (ix5 b s c h w) - o (ix5 b s c h w)))
      = wsq o cv wt b s c h w := fun s c h w => by
    unfold wsq; exact mul_comm _ _
  simp only [h1]
  rw [Cert.LibSumIdx5.sum_inner_two_out (fun s c h w => wsq o cv wt b s c h w)]
  refine Finset.sum_congr rfl fun h _ => Finset.sum_congr rfl fun w _ => ?_
  show _ = ∑ k : Fin 5, tileSum o cv wt b h w k
  unfold tileSum
  exact TileSum.sum_axis tiles (fun s => ∑ c : Fin 4, wsq o cv wt b s c h w)

end Cert.Spec

end
-- ==== Proof.RefRead.lean ====
/-
  The reference's result is the specification's.

  The reference subtracts the first array from the second, squares, multiplies by the weight repeated over the channel
  axis (the weight written first), adds every entry to the zero word and divides by 1024. Its weight index at
  (b, s, c, h, w) is (b, s, h, w). The total over the rank-5 index set is regrouped into the partial sums by the
  specification's law.
-/
import proofs.«139337_j33758442946604_2_alg».proof.Proof.Gen.ReferenceIdeal.Run
import proofs.«139337_j33758442946604_2_alg».proof.Proof.Gen.ReferenceIdeal.Read
import proofs.«139337_j33758442946604_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefRead

open Cert.ReferenceIdeal Cert.ReferenceIdeal.Read Idealize.ShloMosaic Idealize.ShloMosaic.ValueIdx

/-- The two broadcasts together read the weight at the index with the channel coordinate dropped. -/
theorem weight_idx (i : S8x300x4x32x32.Idx) : idx_main_v2 (idx_main_v3 i) = ix4 (i 0) (i 1) (i 3) (i 4) := by
  funext a
  apply Fin.ext
  match a with
  | ⟨0, _⟩ => rfl
  | ⟨1, _⟩ => rfl
  | ⟨2, _⟩ => rfl
  | ⟨3, _⟩ => rfl

/-- The product the reference sums, at an index. -/
theorem term_apply (x0 x1 : (⟨S8x300x4x32x32, .f32⟩ : BufTy).Contents (Elt Ideal))
    (x2 : (⟨S8x300x32x32, .f32⟩ : BufTy).Contents (Elt Ideal)) (j : S8x300x4x32x32.Idx) :
    val_main_v4 (F := Ideal) x0 x1 x2 j = x2 (ix4 (j 0) (j 1) (j 3) (j 4)) * ((x1 j - x0 j) * (x1 j - x0 j)) := by
  rw [val_main_v4_apply, val_main_v3_apply, val_main_v2_apply, val_main_v1_apply, val_main_v0_apply, weight_idx]
  rfl

/-- The reference's result, as a function of the argument arrays, is the specification's. -/
theorem result_eq (x0 x1 : (⟨S8x300x4x32x32, .f32⟩ : BufTy).Contents (Elt Ideal))
    (x2 : (⟨S8x300x32x32, .f32⟩ : BufTy).Contents (Elt Ideal)) :
    val_main_v6 (F := Ideal) x0 x1 x2 = Cert.Spec.G x0 x1 x2 := by
  funext i
  rw [val_main_v6_apply, val_main_v5_apply, val_main_cst_apply, val_main_cst_0_apply]
  unfold Cert.Spec.G
  rw [← Cert.Spec.total_eq x0 x1 x2]
  simp only [term_apply]
  rfl

end Cert.ReferenceIdeal.RefRead

end
-- ==== Proof.Pieces.lean ====
/-
  What each control case of the kernel body leaves behind, as the body's arithmetic applied to the blocks it loads.

  The body always adds the point's contribution to the accumulator scratch. At the first point of a grid row (case A)
  it first overwrites the scratch with zeros, so the scratch ends at the contribution added to zero; at the other
  points (cases B and C) it ends at the contribution added to what the previous point left. At the last point of a
  row (case C) the output block receives a copy of the scratch's new contents. The body loads the second rank-5
  window first and subtracts the first from it.
-/
import proofs.«139337_j33758442946604_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- Case B (inside a row): the scratch holding `xs0` ends at the contribution added to `xs0`. -/
theorem scratch_B (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x32x32 .f32) (harg5 : arg5.IsWhole) (arg6 : Memref sig .tc .vmem S1x32x32 .f32) (harg6 : arg6.IsWhole) (hc0 : ¬cond0_0 i) (hc1 : ¬cond0_1 i)
    (x0 : Vec F S1x60x4x32x32 .f32) (x1 : Vec F S1x60x4x32x32 .f32) (x2 : Vec F S1x60x32x32 .f32) (xs0 : Vec F S1x32x32 .f32) :
    sout0_B_0 c i arg2 harg2 arg3 harg3 arg4 harg4 arg5 harg5 arg6 harg6 hc0 hc1 x0 x1 x2 xs0 = k0_pay2 x1 x0 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz3]
  simp only [View.readAt_eq_ld, harg2.read_unread, harg3.read_unread, harg4.read_unread, harg6.read_unread,
    View.ld_unit_zero (S := S1x60x4x32x32) hz5, View.ld_unit_zero (S := S1x60x32x32) hz4,
    View.ld_unit_zero (S := S1x32x32) hz3]

/-- Case C (last point of a row): the scratch likewise … -/
theorem scratch_C (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x32x32 .f32) (harg5 : arg5.IsWhole) (arg6 : Memref sig .tc .vmem S1x32x32 .f32) (harg6 : arg6.IsWhole) (hc0 : ¬cond0_0 i) (hc1 : cond0_1 i)
    (x0 : Vec F S1x60x4x32x32 .f32) (x1 : Vec F S1x60x4x32x32 .f32) (x2 : Vec F S1x60x32x32 .f32) (xs0 : Vec F S1x32x32 .f32) :
    sout0_C_0 c i arg2 harg2 arg3 harg3 arg4 harg4 arg5 harg5 arg6 harg6 hc0 hc1 x0 x1 x2 xs0 = k0_pay2 x1 x0 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x32x32) hz3]
  simp only [View.readAt_eq_ld, harg2.read_unread, harg3.read_unread, harg4.read_unread, harg6.read_unread,
    View.ld_unit_zero (S := S1x60x4x32x32) hz5, View.ld_unit_zero (S := S1x60x32x32) hz4,
    View.ld_unit_zero (S := S1x32x32) hz3]

/-- … and the output block is a copy of it. -/
theorem out_C (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x32x32 .f32) (harg5 : arg5.IsWhole) (arg6 : Memref sig .tc .vmem S1x32x32 .f32) (harg6 : arg6.IsWhole) (hc0 : ¬cond0_0 i) (hc1 : cond0_1 i)
    (x0 : Vec F S1x60x4x32x32 .f32) (x1 : Vec F S1x60x4x32x32 .f32) (x2 : Vec F S1x60x32x32 .f32) (xs0 : Vec F S1x32x32 .f32) :
    out0_C_3 c i arg2 harg2 arg3 harg3 arg4 harg4 arg5 harg5 arg6 harg6 hc0 hc1 x0 x1 x2 xs0 = k0_pay2 x1 x0 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x32x32) hz3, View.readCov_unit_zero (S := S1x32x32) _ hz3]
  simp only [View.readAt_eq_ld, harg2.read_unread, harg3.read_unread, harg4.read_unread, harg6.read_unread,
    View.ld_unit_zero (S := S1x60x4x32x32) hz5, View.ld_unit_zero (S := S1x60x32x32) hz4,
    View.ld_unit_zero (S := S1x32x32) hz3]

/-- Case A (first point of a row): the scratch is zeroed first, so it ends at the contribution added to the zero block. -/
theorem scratch_A (c : Dev nD) (i : grid0.Coords) (arg2 : Memref sig .tc .vmem S1x60x4x32x32 .f32) (harg2 : arg2.IsWhole) (arg3 : Memref sig .tc .vmem S1x60x4x32x32 .f32) (harg3 : arg3.IsWhole) (arg4 : Memref sig .tc .vmem S1x60x32x32 .f32) (harg4 : arg4.IsWhole) (arg5 : Memref sig .tc .vmem S1x32x32 .f32) (harg5 : arg5.IsWhole) (arg6 : Memref sig .tc .vmem S1x32x32 .f32) (harg6 : arg6.IsWhole) (hc0 : cond0_0 i) (hc1 : ¬cond0_1 i)
    (x0 : Vec F S1x60x4x32x32 .f32) (x1 : Vec F S1x60x4x32x32 .f32) (x2 : Vec F S1x60x32x32 .f32) :
    sout0_A_0 c i arg2 harg2 arg3 harg3 arg4 harg4 arg5 harg5 arg6 harg6 hc0 hc1 x0 x1 x2 = k0_pay2 x1 x0 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x32x32) hz3, View.readCov_unit_zero (S := S1x32x32) _ hz3]
  simp only [View.readAt_eq_ld, harg2.read_unread, harg3.read_unread, harg4.read_unread,
    View.ld_unit_zero (S := S1x60x4x32x32) hz5, View.ld_unit_zero (S := S1x60x32x32) hz4]

end Cert.KernelIdeal.Pieces

end
-- ==== Proof.Payload.lean ====
/-
  The kernel body's arithmetic read at one entry.

  The body takes a block `a` of `cv` and a block `b` of `o` (each [1, 60, 4, 32, 32]), a block `wt` of the weight
  ([1, 60, 32, 32]) and the accumulator `acc` ([1, 32, 32]). It forms `(a - b)²` times the weight, the weight given
  a unit channel axis and repeated over the 4 channels; sums over the channel axis and then over the 60 positions;
  and adds the result to the accumulator. At the entry (z, h, w) that is the accumulator's entry plus the double
  sum over the positions and the channels. The value stored at the first point of a row of the grid is all zeros.
-/
import proofs.«139337_j33758442946604_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The weight block, given a unit channel axis and repeated over the channels, at (z, s, c, h, w) is the weight at
    (z, s, h, w). -/
theorem weight_apply (wt : FVec Ideal S1x60x32x32 .f32) (z : Fin 1) (s : Fin 60) (c : Fin 4) (h w : Fin 32) :
    broadcastTo S1x60x4x32x32 (shapeCast S1x60x1x32x32 wt shapeCasts_S1x60x32x32_S1x60x1x32x32)
        broadcasts_S1x60x1x32x32_S1x60x4x32x32 (ix5 z s c h w)
      = wt (ix4 z s h w) := by
  refine (broadcastTo_apply _ broadcasts_S1x60x1x32x32_S1x60x4x32x32 (ix5 z s c h w)
    (ix5 z s (0 : Fin 1) h w : S1x60x1x32x32.Idx) ?_).trans ?_
  · intro a
    match a with
    | ⟨0, _⟩ => show z.val = if (1 : Nat) = 1 then 0 else z.val; rw [if_pos rfl]; have := z.isLt; omega
    | ⟨1, _⟩ => show s.val = if (60 : Nat) = 1 then 0 else s.val; rw [if_neg (by decide)]
    | ⟨2, _⟩ => show 0 = if (1 : Nat) = 1 then 0 else c.val; rw [if_pos rfl]
    | ⟨3, _⟩ => show h.val = if (32 : Nat) = 1 then 0 else h.val; rw [if_neg (by decide)]
    | ⟨4, _⟩ => show w.val = if (32 : Nat) = 1 then 0 else w.val; rw [if_neg (by decide)]
  · refine shapeCast_apply wt shapeCasts_S1x60x32x32_S1x60x1x32x32 _ (ix4 z s h w : S1x60x32x32.Idx) ?_
    rw [Shape.rowMajor_val_four, Shape.rowMajor_val_five]
    show ((z.val * 60 + s.val) * 32 + h.val) * 32 + w.val = (((z.val * 60 + s.val) * 1 + 0) * 32 + h.val) * 32 + w.val
    omega

/-- The accumulated value at (z, h, w): the accumulator there plus the sum over the 60 positions and the 4 channels
    of the squared difference times the weight. -/
theorem pay2_apply (a b : Vec Ideal S1x60x4x32x32 .f32) (wt : Vec Ideal S1x60x32x32 .f32) (acc : Vec Ideal S1x32x32 .f32)
    (z : Fin 1) (h w : Fin 32) :
    k0_pay2 (F := Ideal) a b wt acc (ix3 z h w)
      = acc (ix3 z h w) + ∑ s : Fin 60, ∑ c : Fin 4,
          (a (ix5 z s c h w) - b (ix5 z s c h w)) * (a (ix5 z s c h w) - b (ix5 z s c h w)) * wt (ix4 z s h w) := by
  unfold k0_pay2
  rw [shapeCast_self]
  refine (addf_apply _ _ _).trans ?_
  refine congrArg (acc (ix3 z h w) + ·) ?_
  refine (Ideal.multiReduction_add_single _ _ reduces_S1x60x32x32_S1x32x32 _ _ _).trans ?_
  refine Finset.sum_congr rfl fun s _ => ?_
  refine (Ideal.multiReduction_add_single _ _ reduces_S1x60x4x32x32_S1x60x32x32 _ _ _).trans ?_
  refine Finset.sum_congr rfl fun c _ => ?_
  have e : reduces_S1x60x4x32x32_S1x60x32x32.lift (reduces_S1x60x32x32_S1x32x32.lift (ix3 z h w : S1x32x32.Idx) s) c
      = (ix5 z s c h w : S1x60x4x32x32.Idx) := by
    funext d
    apply Fin.ext
    match d with
    | ⟨0, _⟩ => rfl
    | ⟨1, _⟩ => rfl
    | ⟨2, _⟩ => rfl
    | ⟨3, _⟩ => rfl
    | ⟨4, _⟩ => rfl
  rw [e]
  refine (mulf_apply _ _ _).trans ?_
  exact congrArg₂ (· * ·) rfl (weight_apply wt z s c h w)

/-- The value stored at the first point of each row of the grid is zero everywhere. -/
theorem pay1_apply (j : S1x32x32.Idx) : k0_pay1 (F := Ideal) j = 0 := by
  unfold k0_pay1
  rw [shapeCast_self]
  exact Ideal.ofBits_zero_f32

end Cert.KernelIdeal.Payload

end
-- ==== Proof.Blocks.lean ====
/-
  The blocks a grid point works on, read off the whole argument arrays.

  The grid has 8 · 5 points; point `t` is row `b = t / 5`, tile `k = t % 5`. Its block of each rank-5 array is
  [b, 60k .. 60k+59, all channels, all h, all w], its block of the weight [b, 60k .. 60k+59, all h, all w], and its
  output block is row `b` of the [8, 32, 32] result. So the point's contribution to the accumulator at (h, w) — the
  body's double sum over the block — is the specification's tile sum for (b, h, w, k) of the argument arrays.
-/
import proofs.«139337_j33758442946604_2_alg».proof.Proof.Gen.KernelIdeal.Frame
import proofs.«139337_j33758442946604_2_alg».proof.Proof.Payload
import proofs.«139337_j33758442946604_2_alg».proof.Proof.Spec

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem

/-- The printed index maps over the grid: the two leading block indices are the row and the tile, the others zero. -/
theorem idx0 : ∀ t : Fin cfg0.N, win0_0.index t (0 : Fin 5) = t.val / 5 ∧ win0_0.index t (1 : Fin 5) = t.val % 5
    ∧ win0_0.index t (2 : Fin 5) = 0 ∧ win0_0.index t (3 : Fin 5) = 0 ∧ win0_0.index t (4 : Fin 5) = 0 :=
  (by decide +kernel : ∀ t : Fin grid0.N, _)
theorem idx1 : ∀ t : Fin cfg0.N, win0_1.index t (0 : Fin 5) = t.val / 5 ∧ win0_1.index t (1 : Fin 5) = t.val % 5
    ∧ win0_1.index t (2 : Fin 5) = 0 ∧ win0_1.index t (3 : Fin 5) = 0 ∧ win0_1.index t (4 : Fin 5) = 0 :=
  (by decide +kernel : ∀ t : Fin grid0.N, _)
theorem idx2 : ∀ t : Fin cfg0.N, win0_2.index t (0 : Fin 4) = t.val / 5 ∧ win0_2.index t (1 : Fin 4) = t.val % 5
    ∧ win0_2.index t (2 : Fin 4) = 0 ∧ win0_2.index t (3 : Fin 4) = 0 :=
  (by decide +kernel : ∀ t : Fin grid0.N, _)
theorem idx3 : ∀ t : Fin cfg0.N, win0_3.index t (0 : Fin 3) = t.val / 5
    ∧ win0_3.index t (1 : Fin 3) = 0 ∧ win0_3.index t (2 : Fin 3) = 0 :=
  (by decide +kernel : ∀ t : Fin grid0.N, _)

variable {F : FTy → Type} [FloatOps F]
variable (m : (ℓ : Loc nD τ sig) → Buf (Elt F) ℓ)

/-- The first rank-5 window's block at point (b, k), entry (z, s, ch, h, w): the array at (b, 60k + s, ch, h, w). -/
theorem iblk0_apply (c : Dev nD) (t : Fin cfg0.N) (b : Fin 8) (k : Fin 5) (e : t.val = 5 * b.val + k.val)
    (z : Fin 1) (s : Fin 60) (ch : Fin 4) (h w : Fin 32) :
    (iblk m c 0 t : Vec F S1x60x4x32x32 .f32) (ix5 z s ch h w)
      = (V m c main_arg0 : Vec F S8x300x4x32x32 .f32) (ix5 b (TileSum.idx Cert.Spec.tiles k s) ch h w) := by
  obtain ⟨i0, i1, i2, i3, i4⟩ := idx0 t
  unfold iblk
  rw [View.read_apply]
  show V m c main_arg0 _ = V m c main_arg0 _
  congr 1
  funext a
  apply Fin.ext
  have hz := z.isLt
  have hk := k.isLt
  match a with
  | ⟨0, _⟩ => show win0_0.index t (0 : Fin 5) * 1 + 1 * z.val = b.val; rw [i0]; omega
  | ⟨1, _⟩ => show win0_0.index t (1 : Fin 5) * 60 + 1 * s.val = k.val * 60 + s.val; rw [i1]; omega
  | ⟨2, _⟩ => show win0_0.index t (2 : Fin 5) * 4 + 1 * ch.val = ch.val; rw [i2]; omega
  | ⟨3, _⟩ => show win0_0.index t (3 : Fin 5) * 32 + 1 * h.val = h.val; rw [i3]; omega
  | ⟨4, _⟩ => show win0_0.index t (4 : Fin 5) * 32 + 1 * w.val = w.val; rw [i4]; omega

/-- The second rank-5 window's block likewise. -/
theorem iblk1_apply (c : Dev nD) (t : Fin cfg0.N) (b : Fin 8) (k : Fin 5) (e : t.val = 5 * b.val + k.val)
    (z : Fin 1) (s : Fin 60) (ch : Fin 4) (h w : Fin 32) :
    (iblk m c 1 t : Vec F S1x60x4x32x32 .f32) (ix5 z s ch h w)
      = (V m c main_arg1 : Vec F S8x300x4x32x32 .f32) (ix5 b (TileSum.idx Cert.Spec.tiles k s) ch h w) := by
  obtain ⟨i0, i1, i2, i3, i4⟩ := idx1 t
  unfold iblk
  rw [View.read_apply]
  show V m c main_arg1 _ = V m c main_arg1 _
  congr 1
  funext a
  apply Fin.ext
  have hz := z.isLt
  have hk := k.isLt
  match a with
  | ⟨0, _⟩ => show win0_1.index t (0 : Fin 5) * 1 + 1 * z.val = b.val; rw [i0]; omega
  | ⟨1, _⟩ => show win0_1.index t (1 : Fin 5) * 60 + 1 * s.val = k.val * 60 + s.val; rw [i1]; omega
  | ⟨2, _⟩ => show win0_1.index t (2 : Fin 5) * 4 + 1 * ch.val = ch.val; rw [i2]; omega
  | ⟨3, _⟩ => show win0_1.index t (3 : Fin 5) * 32 + 1 * h.val = h.val; rw [i3]; omega
  | ⟨4, _⟩ => show win0_1.index t (4 : Fin 5) * 32 + 1 * w.val = w.val; rw [i4]; omega

/-- The weight window's block at point (b, k), entry (z, s, h, w): the weight at (b, 60k + s, h, w). -/
theorem iblk2_apply (c : Dev nD) (t : Fin cfg0.N) (b : Fin 8) (k : Fin 5) (e : t.val = 5 * b.val + k.val)
    (z : Fin 1) (s : Fin 60) (h w : Fin 32) :
    (iblk m c 2 t : Vec F S1x60x32x32 .f32) (ix4 z s h w)
      = (V m c main_arg2 : Vec F S8x300x32x32 .f32) (ix4 b (TileSum.idx Cert.Spec.tiles k s) h w) := by
  obtain ⟨i0, i1, i2, i3⟩ := idx2 t
  unfold iblk
  rw [View.read_apply]
  show V m c main_arg2 _ = V m c main_arg2 _
  congr 1
  funext a
  apply Fin.ext
  have hz := z.isLt
  have hk := k.isLt
  match a with
  | ⟨0, _⟩ => show win0_2.index t (0 : Fin 4) * 1 + 1 * z.val = b.val; rw [i0]; omega
  | ⟨1, _⟩ => show win0_2.index t (1 : Fin 4) * 60 + 1 * s.val = k.val * 60 + s.val; rw [i1]; omega
  | ⟨2, _⟩ => show win0_2.index t (2 : Fin 4) * 32 + 1 * h.val = h.val; rw [i2]; omega
  | ⟨3, _⟩ => show win0_2.index t (3 : Fin 4) * 32 + 1 * w.val = w.val; rw [i3]; omega

/-- At the ideal instance: the body's arithmetic at point (b, k), entry (z, h, w), is the accumulator's entry plus the
    specification's tile sum of the argument arrays. -/
theorem contrib_apply (mI : (ℓ : Loc nD τ sig) → Buf (Elt Ideal) ℓ) (c : Dev nD) (t : Fin cfg0.N) (b : Fin 8) (k : Fin 5)
    (e : t.val = 5 * b.val + k.val) (acc : Vec Ideal S1x32x32 .f32) (z : Fin 1) (h w : Fin 32) :
    k0_pay2 (F := Ideal) (iblk mI c 1 t) (iblk mI c 0 t) (iblk mI c 2 t) acc (ix3 z h w)
      = acc (ix3 z h w) + Cert.Spec.tileSum (V mI c main_arg0) (V mI c main_arg1) (V mI c main_arg2) b h w k := by
  refine (Cert.KernelIdeal.Payload.pay2_apply (iblk mI c 1 t) (iblk mI c 0 t) (iblk mI c 2 t) acc z h w).trans ?_
  refine congrArg (acc (ix3 z h w) + ·) ?_
  unfold Cert.Spec.tileSum
  refine Finset.sum_congr rfl fun s _ => Finset.sum_congr rfl fun ch _ => ?_
  unfold Cert.Spec.wsq
  rw [iblk0_apply mI c t b k e z s ch h w, iblk1_apply mI c t b k e z s ch h w, iblk2_apply mI c t b k e z s h w]

end Cert.KernelIdeal.Blocks

end
-- ==== Proof.Accum.lean ====
/-
  The accumulator over the grid.

  Along a row `b` of the grid (points 5b, …, 5b + 4) the scratch is zeroed at the first point and every point adds its
  tile's contribution. So after point 5b + k the scratch holds, at (h, w), the running total of the tile sums of row
  `b` over the tiles 0..k — by induction on the point, each step being one case of the body. At the row's last point
  the output block is a copy of the scratch: the total over all five tiles.
-/
import proofs.«139337_j33758442946604_2_alg».proof.Proof.Gen.KernelIdeal.Frame
import proofs.«139337_j33758442946604_2_alg».proof.Proof.Pieces
import proofs.«139337_j33758442946604_2_alg».proof.Proof.Blocks

set_option maxRecDepth 16384

noncomputable section

open scoped BigOperators

namespace Cert.KernelIdeal.Accum

open Cert.KernelIdeal Cert.KernelIdeal.Gen Idealize.ShloMosaic Idealize.ShloMosaic.TcCoe Idealize.ShloMosaic.ValueIdx
open Idealize.SL.Sem

section Steps

variable {F : FTy → Type} [FloatOps F]
variable (m : (ℓ : Loc nD τ sig) → Buf (Elt F) ℓ)

/-- At the first point of a row the scratch ends at the point's contribution added to the zero block. -/
theorem scratch_first (c : Dev nD) (t : Fin cfg0.N) (h0 : t.val % 5 = 0) :
    (outsAt0 m c t.val t.isLt).2 = k0_pay2 (iblk m c 1 t) (iblk m c 0 t) (iblk m c 2 t) (k0_pay1 (F := F)) := by
  have h1 : ¬t.val % 5 = 4 := by omega
  rw [outsAt0_A m c t h0 h1]
  exact Cert.KernelIdeal.Pieces.scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At any other point it ends at the contribution added to what the previous point left. -/
theorem scratch_next (c : Dev nD) (t : Fin cfg0.N) (h0 : ¬t.val % 5 = 0) :
    (outsAt0 m c t.val t.isLt).2
      = k0_pay2 (iblk m c 1 t) (iblk m c 0 t) (iblk m c 2 t)
          (outsAt0 m c (t.val - 1) (Nat.lt_of_le_of_lt (Nat.sub_le _ _) t.isLt)).2 := by
  by_cases h1 : t.val % 5 = 4
  · rw [outsAt0_C m c t h0 h1]
    exact Cert.KernelIdeal.Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2
  · rw [outsAt0_B m c t h0 h1]
    exact Cert.KernelIdeal.Pieces.scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
      (outsAt0 m c (t.val - 1) (Nat.lt_of_le_of_lt (Nat.sub_le _ _) t.isLt)).2

/-- At the last point of a row the output block is a copy of the scratch. -/
theorem out_last (c : Dev nD) (t : Fin cfg0.N) (h1 : t.val % 5 = 4) :
    (outsAt0 m c t.val t.isLt).1 = (outsAt0 m c t.val t.isLt).2 := by
  have h0 : ¬t.val % 5 = 0 := by omega
  rw [outsAt0_C m c t h0 h1]
  exact (Cert.KernelIdeal.Pieces.out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2).trans
    (Cert.KernelIdeal.Pieces.scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
      (outsAt0 m c (t.val - 1) (Nat.lt_of_le_of_lt (Nat.sub_le _ _) t.isLt)).2).symm

end Steps

section AtIdeal

variable (m : (ℓ : Loc nD τ sig) → Buf (Elt Ideal) ℓ)

/-- First point of row `b`: the running total up to tile 0. -/
theorem total_first (c : Dev nD) (t : Fin cfg0.N) (b : Fin 8) (e : t.val = 5 * b.val) (z : Fin 1) (h w : Fin 32) :
    (outsAt0 m c t.val t.isLt).2 (ix3 z h w) = RunningTotal.upTo (Cert.Spec.tileSum (V m c main_arg0) (V m c main_arg1) (V m c main_arg2) b h w) 0 := by
  have e' : t.val = 5 * b.val + (0 : Fin 5).val := by rw [e]; rfl
  rw [scratch_first m c t (by omega)]
  rw [Cert.KernelIdeal.Blocks.contrib_apply m c t b 0 e' _ z h w, Cert.KernelIdeal.Payload.pay1_apply, zero_add,
    RunningTotal.upTo_zero _ (by norm_num)]
  rfl

/-- Point 5b + (k + 1): the running total up to tile k + 1, from the one up to tile k. -/
theorem total_next (c : Dev nD) (t : Fin cfg0.N) (b : Fin 8) (k : ℕ) (hk : k + 1 < 5) (e : t.val = 5 * b.val + (k + 1))
    (z : Fin 1) (h w : Fin 32)
    (ih : (outsAt0 m c (t.val - 1) (Nat.lt_of_le_of_lt (Nat.sub_le _ _) t.isLt)).2 (ix3 z h w) = RunningTotal.upTo (Cert.Spec.tileSum (V m c main_arg0) (V m c main_arg1) (V m c main_arg2) b h w) k) :
    (outsAt0 m c t.val t.isLt).2 (ix3 z h w) = RunningTotal.upTo (Cert.Spec.tileSum (V m c main_arg0) (V m c main_arg1) (V m c main_arg2) b h w) (k + 1) := by
  rw [scratch_next m c t (by omega)]
  rw [Cert.KernelIdeal.Blocks.contrib_apply m c t b ⟨k + 1, hk⟩ e _ z h w, ih, RunningTotal.upTo_succ _ k hk]

/-- After point n = 5b + k the scratch holds at (h, w) the running total of row `b`'s tile sums up to tile k. -/
theorem scratch_eq (c : Dev nD) : ∀ (n : ℕ) (hn : n < cfg0.N) (b : Fin 8) (k : ℕ), n = 5 * b.val + k → k < 5 →
    ∀ (z : Fin 1) (h w : Fin 32), (outsAt0 m c n hn).2 (ix3 z h w) = RunningTotal.upTo (Cert.Spec.tileSum (V m c main_arg0) (V m c main_arg1) (V m c main_arg2) b h w) k := by
  intro n
  induction n with
  | zero =>
    intro hn b k e hk z h w
    obtain rfl : k = 0 := by omega
    exact total_first m c ⟨0, hn⟩ b (by show 0 = 5 * b.val; omega) z h w
  | succ n ih =>
    intro hn b k e hk z h w
    cases k with
    | zero => exact total_first m c ⟨n + 1, hn⟩ b (by show n + 1 = 5 * b.val; omega) z h w
    | succ k =>
      exact total_next m c ⟨n + 1, hn⟩ b k hk (by show n + 1 = 5 * b.val + (k + 1); omega) z h w
        (ih (Nat.lt_of_succ_lt hn) b k (by omega) (by omega) z h w)

/-- At the last point of row `b` the output block holds at (h, w) the sum of all five tile sums. -/
theorem out_eq (c : Dev nD) (t : Fin cfg0.N) (b : Fin 8) (e : t.val = 5 * b.val + 4) (z : Fin 1) (h w : Fin 32) :
    (outsAt0 m c t.val t.isLt).1 (ix3 z h w) = ∑ k : Fin 5, (Cert.Spec.tileSum (V m c main_arg0) (V m c main_arg1) (V m c main_arg2) b h w) k := by
  rw [out_last m c t (by omega), scratch_eq m c t.val t.isLt b 4 e (by norm_num) z h w]
  exact RunningTotal.upTo_last _ 4 (by norm_num)

end AtIdeal

end Cert.KernelIdeal.Accum

end
-- ==== Proof.Result.lean ====
/-
  The kernel's result.

  The output window is written back once per grid row, at the row's last point, and row `b`'s block is row `b` of the
  [8, 32, 32] result array; the eight rows cover it. So after the region that array holds the specification's partial
  sums of the argument arrays. The host lines after the region add all its entries to the zero word and divide by
  1024: the specification's result.
-/
import proofs.«139337_j33758442946604_2_alg».proof.Proof.Gen.KernelIdeal.Frame
import proofs.«139337_j33758442946604_2_alg».proof.Proof.Accum
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The partial sums of the argument arrays, as contents of the kernel's [8, 32, 32] result array. -/
abbrev partials (c : Dev nD) : Buf (Elt Ideal) ((c : Thread nD τ).loc main_v0) :=
  Cert.Spec.partialSum (V m c main_arg0) (V m c main_arg1) (V m c main_arg2)

/-- What a row's last point writes back is that row of the partial sums. -/
theorem flushed_eq (c : Dev nD) (t : Fin cfg0.N) (hf : (cfg0.win 3).flush t = true) :
    (dats m 0 c).flushed 3 t = ((cfg0.win 3).blk t).view.read (Elt Ideal) (partials m c) := by
  have h4 : t.val % 5 = 4 := (flush0_3 t).mp hf
  have hN : t.val < 40 := lt_of_lt_of_eq t.isLt (show cfg0.N = 40 from N_0)
  obtain ⟨i0, i1, i2⟩ := Cert.KernelIdeal.Blocks.idx3 t
  show (cfg0.win 3).cut (grid0.coords t) ((dats m 0 c).after 3 t) = _
  rw [after0_3]
  funext y
  have hy0 : (y 0).val < 1 := (y 0).isLt
  have hy1 : (y 1).val < 32 := (y 1).isLt
  have hy2 : (y 2).val < 32 := (y 2).isLt
  have hb : t.val / 5 < 8 := by omega
  show (outsAt0 m c t.val t.isLt).1 ((cfg0.win 3).xinj (grid0.coords t) y) = _
  rw [show (cfg0.win 3).xinj (grid0.coords t) y
      = (ix3 (⟨(y 0).val, hy0⟩ : Fin 1) (⟨(y 1).val, hy1⟩ : Fin 32) (⟨(y 2).val, hy2⟩ : Fin 32) : S1x32x32.Idx) from
    funext fun a => Fin.ext (by
      match a with
      | ⟨0, _⟩ => rfl
      | ⟨1, _⟩ => rfl
      | ⟨2, _⟩ => rfl)]
  rw [Cert.KernelIdeal.Accum.out_eq m c t ⟨t.val / 5, hb⟩ (by show t.val = 5 * (t.val / 5) + 4; omega)]
  rw [View.read_apply]
  rw [show ((cfg0.win 3).blk t).view.emb y
      = (ix3 (⟨t.val / 5, hb⟩ : Fin 8) (⟨(y 1).val, hy1⟩ : Fin 32) (⟨(y 2).val, hy2⟩ : Fin 32) : S8x32x32.Idx) from
    funext fun a => Fin.ext (by
      match a with
      | ⟨0, _⟩ => show win0_3.index t (0 : Fin 3) * 1 + 1 * (y 0).val = t.val / 5; rw [i0]; omega
      | ⟨1, _⟩ => show win0_3.index t (1 : Fin 3) * 32 + 1 * (y 1).val = (y 1).val; rw [i1]; omega
      | ⟨2, _⟩ => show win0_3.index t (2 : Fin 3) * 32 + 1 * (y 2).val = (y 2).val; rw [i2]; omega)]
  rfl

/-- An index of the result array is in point `t`'s block iff each coordinate is in the block's range on its axis. -/
theorem mem_blk (t : Fin cfg0.N) (i : S8x32x32.Idx) :
    i ∈ ((cfg0.win 3).blk t).view.set ↔ ∀ a : Fin 3, win0_3.index t a * S1x32x32.size a ≤ (i a).val
      ∧ (i a).val < win0_3.index t a * S1x32x32.size a + S1x32x32.size a := by
  show i ∈ ((View.whole main_v0).slice (win0_3.rect t)).set ↔ _
  rw [View.set_slice_whole, Rect.mem_set_unit]
  exact Iff.rfl

/-- Every entry (b, h, w) of the result array is in the block written back at the last point of row `b`. -/
theorem cover (i : S8x32x32.Idx) :
    ∃ t : Fin cfg0.N, (cfg0.win 3).flush t = true ∧ i ∈ ((cfg0.win 3).blk t).view.set := by
  have hi0 : (i 0).val < 8 := (i 0).isLt
  have hi1 : (i 1).val < 32 := (i 1).isLt
  have hi2 : (i 2).val < 32 := (i 2).isLt
  have hN : cfg0.N = 40 := N_0
  have ht : 5 * (i 0).val + 4 < cfg0.N := by rw [hN]; omega
  obtain ⟨i0, i1, i2⟩ := Cert.KernelIdeal.Blocks.idx3 ⟨5 * (i 0).val + 4, ht⟩
  refine ⟨⟨5 * (i 0).val + 4, ht⟩, (flush0_3 _).mpr (by show (5 * (i 0).val + 4) % 5 = 4; omega), ?_⟩
  rw [mem_blk]
  have e0 : (5 * (i 0).val + 4) / 5 = (i 0).val := by omega
  intro a
  match a with
  | ⟨0, _⟩ =>
    show win0_3.index ⟨5 * (i 0).val + 4, ht⟩ (0 : Fin 3) * 1 ≤ (i 0).val
      ∧ (i 0).val < win0_3.index ⟨5 * (i 0).val + 4, ht⟩ (0 : Fin 3) * 1 + 1
    rw [i0]; show (5 * (i 0).val + 4) / 5 * 1 ≤ (i 0).val ∧ (i 0).val < (5 * (i 0).val + 4) / 5 * 1 + 1
    rw [e0]; omega
  | ⟨1, _⟩ =>
    show win0_3.index ⟨5 * (i 0).val + 4, ht⟩ (1 : Fin 3) * 32 ≤ (i 1).val
      ∧ (i 1).val < win0_3.index ⟨5 * (i 0).val + 4, ht⟩ (1 : Fin 3) * 32 + 32
    rw [i1]; omega
  | ⟨2, _⟩ =>
    show win0_3.index ⟨5 * (i 0).val + 4, ht⟩ (2 : Fin 3) * 32 ≤ (i 2).val
      ∧ (i 2).val < win0_3.index ⟨5 * (i 0).val + 4, ht⟩ (2 : Fin 3) * 32 + 32
    rw [i2]; omega

/-- After the region the kernel's result array holds the partial sums. -/
theorem final (c : Dev nD) : (dats m 0 c).arrAt 3 cfg0.N = partials m c :=
  (dats m 0 c).arrAt_eq_of_cover 3 (partials m c) (flushed_eq m c) cover

/-- The host lines after the region, applied to that array: the specification's result. -/
theorem tail_eq (c : Dev nD) :
    Pipeline.afterTail₀ cfgs (dats m) 0 (V0 m) [hostOps1] c main_v2 = Cert.Spec.G (V m c main_arg0) (V m c main_arg1) (V m c main_arg2) := by
  unfold Pipeline.afterTail₀
  show StableHlo.after hostOps1 _ (Proc.devRef .tc main_v2) = _
  after_results
  have hA : Pipeline.withArrays (cfgs 0).spec c (V0 m c) (fun w => (dats m 0 c).arrAt w (cfgs 0).N)
      (Proc.devRef .tc main_v0) = partials m c :=
    (Pipeline.withArrays_arr spec0 launch0.win.arr_inj c _ _ 3).trans (final m c)
  rw [hA]
  funext i
  have hsum : Host.reduceAdd (partials m c) (constant (F := Ideal) S_ .f32 0x00000000#32) reducesTo_S8x32x32_S_d0_1_2 h_S_ i
      = constant (F := Ideal) S_ .f32 0x00000000#32 (Shape.Idx.first h_S_)
        + ∑ p : Cert.Spec.I3, Cert.Spec.partialSum (V m c main_arg0) (V m c main_arg1) (V m c main_arg2) p := by
    simp only [Host.reduceAdd, Ideal.hostReduceAdd_def]
    exact Ideal.hostReduceAdd_total reducesTo_S8x32x32_S_d0_1_2 (fun b => b.elim0) (partials m c) _ i
  show FloatOps.hostDivf
      (Host.reduceAdd (partials m c) (constant (F := Ideal) S_ .f32 0x00000000#32) reducesTo_S8x32x32_S_d0_1_2 h_S_ i)
      (constant (F := Ideal) S_ .f32 0x44800000#32 i) = _
  rw [hsum]
  rfl

/-- The result buffer is none of the region's arrays and is not scoped: the run's post states it through the tail. -/
theorem result_mem : main_v2 ∈ Pipeline.restRefs sig (cfgs 0).spec :=
  Pipeline.mem_restRefs_of main_v2 rfl (fun w => by fin_cases w <;> decide)

/-- The kernel program's run, read: the result at the specification's value of the argument arrays, which end
    unchanged. -/
theorem run : θ_run defs (onTc (τ := τ) (main (F := Ideal))) ⟨m, fun _ => 0, ρ⟩ fun r => ∀ c : Dev nD,
      r.2.mem ((c.tc : Thread nD τ).loc main_v2)
        = Cert.Spec.G (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v2 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.lean ====
/-
  The kernel and its reference compute one number from three arrays: `o` and `cv` of shape [8, 300, 4, 32, 32] and a
  weight `wt` of shape [8, 300, 32, 32]. Both form the weighted squared differences `(cv - o)² · wt`, the weight not
  depending on the channel axis, add them all up from the zero word, and divide by 1024.

  The reference does this in one reduction over the rank-5 index set. The kernel walks a grid of 8 rows by 5 tiles
  of the sequence axis: a [1, 32, 32] accumulator is zeroed at the first tile of a row, each tile adds its sums over
  its 60 positions and the 4 channels, and the last tile copies the accumulator to the row's block of an [8, 32, 32]
  array of partial sums; the lines after the grid add all partial sums and divide by 1024.

  The two agree on the extended reals because a finite sum may be regrouped freely there (addition is commutative and
  associative with the infinities included), the product commutes, and the divisor and the zero word are the same on
  both sides. No finiteness of the inputs is used. The kernel's idealization rewrote no operation, so it is the
  kernel's own text read over the extended reals.
-/
import proofs.«139337_j33758442946604_2_alg».proof.Defs
import proofs.«139337_j33758442946604_2_alg».proof.Proof.Gen.Kernel
import proofs.«139337_j33758442946604_2_alg».proof.Proof.Gen.Kernel.Skeleton
import proofs.«139337_j33758442946604_2_alg».proof.Proof.Gen.Kernel.Launch
import proofs.«139337_j33758442946604_2_alg».proof.Proof.Gen.Kernel.Points
import proofs.«139337_j33758442946604_2_alg».proof.Proof.Gen.Kernel.Frame
import proofs.«139337_j33758442946604_2_alg».proof.Proof.Gen.KernelIdeal
import proofs.«139337_j33758442946604_2_alg».proof.Proof.Gen.KernelIdeal.Skeleton
import proofs.«139337_j33758442946604_2_alg».proof.Proof.Gen.KernelIdeal.Launch
import proofs.«139337_j33758442946604_2_alg».proof.Proof.Gen.KernelIdeal.Points
import proofs.«139337_j33758442946604_2_alg».proof.Proof.Gen.KernelIdeal.Frame
import proofs.«139337_j33758442946604_2_alg».proof.Proof.Gen.ReferenceIdeal
import proofs.«139337_j33758442946604_2_alg».proof.Proof.Gen.ReferenceIdeal.Run
import proofs.«139337_j33758442946604_2_alg».proof.Proof.Gen.ReferenceIdeal.Read
import proofs.«139337_j33758442946604_2_alg».proof.Proof.Gen.Pre_finite_inputs
import proofs.«139337_j33758442946604_2_alg».proof.Proof.Spec
import proofs.«139337_j33758442946604_2_alg».proof.Proof.RefRead
import proofs.«139337_j33758442946604_2_alg».proof.Proof.Result
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on the arguments both programs end at the specification's value of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefRead.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
